-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v3) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x4096x2048 : Shape := ⟨3, ![4, 4096, 2048]⟩
abbrev S64x2048 : Shape := ⟨2, ![64, 2048]⟩
abbrev S64 : Shape := ⟨1, ![64]⟩
abbrev S_ : Shape := ⟨0, ![]⟩

class Facts : Prop where
  bcast_S_S4x4096x2048 : S_.BroadcastsInDim S4x4096x2048 (![] : Fin 0 → Fin S4x4096x2048.rank)
  reducesTo_S4x4096x2048_S_d0_1_2 : S4x4096x2048.ReducesTo [0, 1, 2] S_
  h_S_ : 0 < S_.numel
  bcast_S_S64x2048 : S_.BroadcastsInDim S64x2048 (![] : Fin 0 → Fin S64x2048.rank)
  reducesTo_S64x2048_S_d0_1 : S64x2048.ReducesTo [0, 1] S_
  bcast_S_S64 : S_.BroadcastsInDim S64 (![] : Fin 0 → Fin S64.rank)
  reducesTo_S64_S_d0 : S64.ReducesTo [0] S_

variable [Facts]

def fn {F : FTy → Type} [FloatOps F] (main_arg0 : FVec F S4x4096x2048 .f32) (main_arg1 : FVec F S64x2048 .f32) (main_arg2 : FVec F S64 .f32) : IVec S_ 1 :=
  let main_v0 : FVec F S4x4096x2048 .f32 := Host.absf main_arg0
  let main_cst : FVec F S_ .f32 := constant S_ .f32 0x7F800000#32
  let main_v1 : FVec F S4x4096x2048 .f32 := broadcastInDim S4x4096x2048 ![] bcast_S_S4x4096x2048 main_cst
  let main_v2 : IVec S4x4096x2048 1 := cmpf .olt main_v0 main_v1
  let main_c : IVec S_ 1 := constantI S_ 1 1#1
  let main_v3 : IVec S_ 1 := (fun x v => Host.reduce IntOp.andi x v reducesTo_S4x4096x2048_S_d0_1_2 h_S_) main_v2 main_c
  let main_v4 : FVec F S64x2048 .f32 := Host.absf main_arg1
  let main_cst_0 : FVec F S_ .f32 := constant S_ .f32 0x7F800000#32
  let main_v5 : FVec F S64x2048 .f32 := broadcastInDim S64x2048 ![] bcast_S_S64x2048 main_cst_0
  let main_v6 : IVec S64x2048 1 := cmpf .olt main_v4 main_v5
  let main_c_1 : IVec S_ 1 := constantI S_ 1 1#1
  let main_v7 : IVec S_ 1 := (fun x v => Host.reduce IntOp.andi x v reducesTo_S64x2048_S_d0_1 h_S_) main_v6 main_c_1
  let main_v8 : IVec S_ 1 := andi main_v3 main_v7
  let main_v9 : FVec F S64 .f32 := Host.absf main_arg2
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  main_v13
-- ==== Kernel.lean ====
abbrev S4x4096x2048 : Shape := ⟨3, ![4, 4096, 2048]⟩
abbrev S64x2048 : Shape := ⟨2, ![64, 2048]⟩
abbrev S64 : Shape := ⟨1, ![64]⟩
abbrev S4x64x4096 : Shape := ⟨3, ![4, 64, 4096]⟩
abbrev S1x1024x2048 : Shape := ⟨3, ![1, 1024, 2048]⟩
abbrev S1x64x1024 : Shape := ⟨3, ![1, 64, 1024]⟩
abbrev S1024x2048 : Shape := ⟨2, ![1024, 2048]⟩
abbrev S64x1024 : Shape := ⟨2, ![64, 1024]⟩
abbrev S64x1 : Shape := ⟨2, ![64, 1]⟩
abbrev S4x4096x64 : Shape := ⟨3, ![4, 4096, 64]⟩

abbrev nBuf : Space → Nat
  | .hbm => 5
  | .vmem => 6
  | .smem => 0
  | _ => 0

abbrev bufTy : (tb : Table) → Fin (tcTables nBuf tb) → BufTy
  | .hbm, ⟨0, _⟩ => ⟨S4x4096x2048, .f32⟩
  | .hbm, ⟨1, _⟩ => ⟨S64x2048, .f32⟩
  | .hbm, ⟨2, _⟩ => ⟨S64, .f32⟩
  | .hbm, ⟨3, _⟩ => ⟨S4x64x4096, .f32⟩
  | .hbm, ⟨4, _⟩ => ⟨S4x4096x64, .f32⟩
  | .local _ .vmem, ⟨0, _⟩ => ⟨S1x1024x2048, .f32⟩
  | .local _ .vmem, ⟨1, _⟩ => ⟨S1x1024x2048, .f32⟩
  | .local _ .vmem, ⟨2, _⟩ => ⟨S64x2048, .f32⟩
  | .local _ .vmem, ⟨3, _⟩ => ⟨S64, .f32⟩
  | .local _ .vmem, ⟨4, _⟩ => ⟨S1x64x1024, .f32⟩
  | .local _ .vmem, ⟨5, _⟩ => ⟨S1x64x1024, .f32⟩
  | _, _ => ⟨S4x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨2, ![4, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S64x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x64x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  inb_S64x2048_S64x2048_0_0 : ∀ a, (![0, 0] : Fin 2 → Nat) a + S64x2048.size a ≤ S64x2048.size a
  h_S64x2048 : 0 < S64x2048.numel
  inb_S1x1024x2048_S1x1024x2048_0_0_0 : ∀ a, (![0, 0, 0] : Fin 3 → Nat) a + S1x1024x2048.size a ≤ S1x1024x2048.size a
  h_S1x1024x2048 : 0 < S1x1024x2048.numel
  shapeCasts_S1x1024x2048_S1024x2048 : S1x1024x2048.ShapeCasts S1024x2048
  inb_S64_S64_0 : ∀ a, (![0] : Fin 1 → Nat) a + S64.size a ≤ S64.size a
  h_S64 : 0 < S64.numel
  shapeCasts_S64_S64x1 : S64.ShapeCasts S64x1
  broadcasts_S64x1_S64x1024 : S64x1.Broadcasts S64x1024
  inb_S1x64x1024_S1x64x1024_0_0_0 : ∀ a, (![0, 0, 0] : Fin 3 → Nat) a + S1x64x1024.size a ≤ S1x64x1024.size a
  h_S1x64x1024 : 0 < S1x64x1024.numel
  shapeCasts_S1x64x1024_S64x1024 : S1x64x1024.ShapeCasts S64x1024
  shapeCasts_S64x1024_S1x64x1024 : S64x1024.ShapeCasts S1x64x1024
  transposes_S4x64x4096_S4x4096x64_0_2_1 : S4x64x4096.Transposes [0, 2, 1] S4x4096x64
  dot_S64x2048_S1024x2048_S64x1024_1_1_0_0_n_n_wf : DotDims.WF S64x2048 S1024x2048 S64x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x2048.size a ≤ S4x4096x2048.size a
  hwx0_0 : ∀ i : grid0.Coords, EltTy.bits .f32 = 32 ∨ (Rect.block (s := S4x4096x2048) S1x1024x2048.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x2048.size a ≤ S64x2048.size a
  hwx0_1 : ∀ i : grid0.Coords, EltTy.bits .f32 = 32 ∨ (Rect.block (s := S64x2048) S64x2048.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64.size a ≤ S64.size a
  hwx0_2 : ∀ i : grid0.Coords, EltTy.bits .f32 = 32 ∨ (Rect.block (s := S64) S64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x64x1024.size a ≤ S4x64x4096.size a
  hwx0_3 : ∀ i : grid0.Coords, EltTy.bits .f32 = 32 ∨ (Rect.block (s := S4x64x4096) S1x64x1024.size (cc0_transform_3 i) (hinb0_3 i)).WholeWords (EltTy.packing .f32)

variable [Facts₀]

def dot_S64x2048_S1024x2048_S64x1024_1_1_0_0_n_n : DotDims S64x2048 S1024x2048 S64x1024 where
  lhsContracting := [1]
  rhsContracting := [1]
  lhsNonContracting := [0]
  rhsNonContracting := [0]
  lhsBatch := []
  rhsBatch := []
  wf := dot_S64x2048_S1024x2048_S64x1024_1_1_0_0_n_n_wf

abbrev win0_0 : Pipeline.Window sig grid0 :=
  Pipeline.Window.ofSpec (Memref.whole main_arg0) S1x1024x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S64x2048.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x64x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S4x4096x2048 : Shape := ⟨3, ![4, 4096, 2048]⟩
abbrev S64x2048 : Shape := ⟨2, ![64, 2048]⟩
abbrev S64 : Shape := ⟨1, ![64]⟩
abbrev S4x4096x64 : Shape := ⟨3, ![4, 4096, 64]⟩
abbrev S1x1x64 : Shape := ⟨3, ![1, 1, 64]⟩

abbrev nBuf : Space → Nat
  | .hbm => 7
  | .vmem => 0
  | .smem => 0
  | _ => 0

abbrev bufTy : (tb : Table) → Fin (tcTables nBuf tb) → BufTy
  | .hbm, ⟨0, _⟩ => ⟨S4x4096x2048, .f32⟩
  | .hbm, ⟨1, _⟩ => ⟨S64x2048, .f32⟩
  | .hbm, ⟨2, _⟩ => ⟨S64, .f32⟩
  | .hbm, ⟨3, _⟩ => ⟨S4x4096x64, .f32⟩
  | .hbm, ⟨4, _⟩ => ⟨S1x1x64, .f32⟩
  | .hbm, ⟨5, _⟩ => ⟨S4x4096x64, .f32⟩
  | .hbm, ⟨6, _⟩ => ⟨S4x4096x64, .f32⟩
  | _, _ => ⟨S4x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]

class Facts₀ : Prop where
  bcast_S64_S1x1x64_2 : S64.BroadcastsInDim S1x1x64 (![2] : Fin 1 → Fin S1x1x64.rank)
  bcast_S1x1x64_S4x4096x64_0_1_2 : S1x1x64.BroadcastsInDim S4x4096x64 (![0, 1, 2] : Fin 3 → Fin S4x4096x64.rank)
  dot_S4x4096x2048_S64x2048_S4x4096x64_2_1_01_0_n_n_wf : DotDims.WF S4x4096x2048 S64x2048 S4x4096x64 [2] [1] [0, 1] [0] [] []

variable [Facts₀]

def dot_S4x4096x2048_S64x2048_S4x4096x64_2_1_01_0_n_n : DotDims S4x4096x2048 S64x2048 S4x4096x64 where
  lhsContracting := [2]
  rhsContracting := [1]
  lhsNonContracting := [0, 1]
  rhsNonContracting := [0]
  lhsBatch := []
  rhsBatch := []
  wf := dot_S4x4096x2048_S64x2048_S4x4096x64_2_1_01_0_n_n_wf

class Facts : Prop extends Facts₀ where

variable [Facts]
-- ==== Proof.Logits.lean ====
/-
  The router gate as one function of its three arrays, on the extended reals.

  For activations x of shape [4, 4096, 2048], gate weights W of shape [64, 2048] and a bias b of shape [64],
  entry (a, s, e) of the logits is the inner product of row (a, s) of x with row e of W, plus b e:
      logits (a, s, e) = (sum over d of x (a, s, d) * W (e, d)) + b e.
  The same numbers laid out with the expert axis in the middle, shape [4, 64, 4096], are "logitsT": its entry
  (a, e, s) is entry (a, s, e) of the logits. Nothing here depends on a program.
-/
import Idealize.ShloMosaic.PureOps.Ideal
import Idealize.ShloMosaic.Lib.ValueIdx

noncomputable section

open scoped BigOperators

namespace Cert.Router

open Idealize.ShloMosaic Idealize.ShloMosaic.ValueIdx

/-- Entry (a, s, e) of the gate's logits: row (a, s) of the activations against row e of the weights, plus the
    bias of expert e. -/
def logits (x : FVec Ideal ⟨3, ![4, 4096, 2048]⟩ .f32) (W : FVec Ideal ⟨2, ![64, 2048]⟩ .f32)
    (b : FVec Ideal ⟨1, ![64]⟩ .f32) : FVec Ideal ⟨3, ![4, 4096, 64]⟩ .f32 :=
  fun i => (∑ d : Fin 2048, x (ix3 (i 0) (i 1) d) * W (ix2 (i 2) d)) + b (ix1 (i 2))

/-- The logits with the expert axis in the middle: entry (a, e, s) is entry (a, s, e) of `logits`. -/
def logitsT (x : FVec Ideal ⟨3, ![4, 4096, 2048]⟩ .f32) (W : FVec Ideal ⟨2, ![64, 2048]⟩ .f32)
    (b : FVec Ideal ⟨1, ![64]⟩ .f32) : FVec Ideal ⟨3, ![4, 64, 4096]⟩ .f32 :=
  fun i => logits x W b (ix3 (i 0) (i 2) (i 1))

/-- With the factors of each product in the other order (weights first), which is how a product of the weight
    matrix with a transposed block of activations presents them: multiplication of extended reals commutes. -/
theorem logitsT_apply (x : FVec Ideal ⟨3, ![4, 4096, 2048]⟩ .f32) (W : FVec Ideal ⟨2, ![64, 2048]⟩ .f32)
    (b : FVec Ideal ⟨1, ![64]⟩ .f32) (a : Fin 4) (e : Fin 64) (s : Fin 4096) :
    logitsT x W b (ix3 a e s) = (∑ d : Fin 2048, W (ix2 e d) * x (ix3 a s d)) + b (ix1 e) := by
  show (∑ d : Fin 2048, x (ix3 a s d) * W (ix2 e d)) + b (ix1 e) = _
  exact congrArg (· + b (ix1 e)) (Finset.sum_congr rfl fun d _ => mul_comm _ _)

end Cert.Router

end
-- ==== Proof.RefLogits.lean ====
/-
  The reference computes the logits.

  Its four host operations are a contraction of the activations' last axis with the weights' last axis, two
  broadcasts that spread the bias over the batch and sequence axes, and a sum. Read at an index (a, s, e) through the
  generated read-at-an-index lemmas these are the sum over d of x (a, s, d) * W (e, d), and b e: the function
  `logits`, term for term.
-/
import proofs.«139707_g40827959116453_cont_8to1_b_939_21_alg».proof.Proof.Gen.ReferenceIdeal.Read
import proofs.«139707_g40827959116453_cont_8to1_b_939_21_alg».proof.Proof.Logits

noncomputable section

open scoped BigOperators

namespace Cert.Router.Ref

open Idealize.ShloMosaic Idealize.ShloMosaic.ValueIdx Cert.ReferenceIdeal Cert.ReferenceIdeal.Read

/-- The reference's last stage is `logits` of its three arguments. -/
theorem val_eq_logits (x : FVec Ideal S4x4096x2048 .f32) (W : FVec Ideal S64x2048 .f32) (b : FVec Ideal S64 .f32) :
    val_main_v3 (F := Ideal) x W b = Cert.Router.logits x W b := by
  funext i
  have el : ∀ k : Fin 2048, lidx_main_v0 i k = ix3 (i 0) (i 1) k := fun k => funext fun a => Fin.ext (by
    match a with | ⟨0, _⟩ => rfl | ⟨1, _⟩ => rfl | ⟨2, _⟩ => rfl)
  have er : ∀ k : Fin 2048, ridx_main_v0 i k = ix2 (i 2) k := fun k => funext fun a => Fin.ext (by
    match a with | ⟨0, _⟩ => rfl | ⟨1, _⟩ => rfl)
  have eb : idx_main_v1 (idx_main_v2 i) = ix1 (i 2) := funext fun a => Fin.ext (by
    match a with | ⟨0, _⟩ => rfl)
  rw [val_main_v3_apply, val_main_v0_apply, val_main_v2_apply, val_main_v1_apply]
  simp only [el, er, eb]
  rfl

end Cert.Router.Ref

end
-- ==== Proof.LibMatmulT.lean ====
/-
  A matrix product with the right operand transposed, read at one entry, on the extended reals.

  For dimension numbers that contract the left operand's second axis with the right operand's second axis
  (an [M, K] array times the transpose of an [N, K] array), started from a zero accumulator, entry (p, c) of the
  product is the sum over k of lhs (p, k) * rhs (c, k). The four coordinate facts about the record's operand
  indices are taken as hypotheses, so the lemma serves every record of that form whatever the extents.
-/
import Idealize.ShloMosaic.PureOps.Ideal.Laws
import Idealize.ShloMosaic.Lib.ValueIdx

noncomputable section

open scoped BigOperators

namespace Idealize.ShloMosaic.MatmulT

open Idealize.ShloMosaic Idealize.ShloMosaic.ValueIdx

/-- Entry (p, c) of the product of an [M, K] array with the transpose of an [N, K] array into a zero accumulator
    is the sum over the one contracted axis of the products of row p of the left operand with row c of the right
    one. `hr`, `hs`: the record contracts one axis, of extent K; `hl0` ... `hr1`: the record's operand indices at
    an output index and a contraction position are (row, position) and (column, position). -/
theorem matmul_zero_apply {M K N : Nat} {φ₁ φ₂ : FTy}
    (D : DotDims ⟨2, ![M, K]⟩ ⟨2, ![N, K]⟩ ⟨2, ![M, N]⟩) (prec : Option ContractPrecision)
    (hr : D.contr.rank = 1) (hs : D.contr.size ⟨0, by omega⟩ = K)
    (hl0 : ∀ (j : (⟨2, ![M, N]⟩ : Shape).Idx) (q : D.contr.Idx), (D.lhsIdx j q (0 : Fin 2)).val = (j 0).val)
    (hl1 : ∀ (j : (⟨2, ![M, N]⟩ : Shape).Idx) (q : D.contr.Idx), (D.lhsIdx j q (1 : Fin 2)).val = (q ⟨0, by omega⟩).val)
    (hr0 : ∀ (j : (⟨2, ![M, N]⟩ : Shape).Idx) (q : D.contr.Idx), (D.rhsIdx j q (0 : Fin 2)).val = (j 1).val)
    (hr1 : ∀ (j : (⟨2, ![M, N]⟩ : Shape).Idx) (q : D.contr.Idx), (D.rhsIdx j q (1 : Fin 2)).val = (q ⟨0, by omega⟩).val)
    (lhs : FVec Ideal ⟨2, ![M, K]⟩ φ₁) (rhs : FVec Ideal ⟨2, ![N, K]⟩ φ₂) (p : Fin M) (c : Fin N) :
    FloatOps.matmul D prec lhs rhs (constant (F := Ideal) ⟨2, ![M, N]⟩ .f32 0x00000000#32) (ix2 p c)
      = ∑ k : Fin K, lhs (ix2 p k) * rhs (ix2 c k) := by
  rw [Ideal.matmul_constant_zero_apply, ← Equiv.sum_comp (contrEquiv1 D K hr hs).symm]
  refine Finset.sum_congr rfl fun k _ => ?_
  have hk := contrEquiv1_symm_val D K hr hs k
  have el : D.lhsIdx (ix2 p c) ((contrEquiv1 D K hr hs).symm k) = ix2 p k := funext fun a => Fin.ext (by
    match a with
    | ⟨0, _⟩ => exact hl0 _ _
    | ⟨1, _⟩ => exact (hl1 _ _).trans hk)
  have er : D.rhsIdx (ix2 p c) ((contrEquiv1 D K hr hs).symm k) = ix2 c k := funext fun a => Fin.ext (by
    match a with
    | ⟨0, _⟩ => exact hr0 _ _
    | ⟨1, _⟩ => exact (hr1 _ _).trans hk)
  rw [el, er]

end Idealize.ShloMosaic.MatmulT

end
-- ==== Proof.LibKeepdims.lean ====
/-
  Keepdims column forms read at an index, at the exact values: a lane sum [a, b] → [a] is the finite sum over the row;
  the cast of the vector of sums [a] → [a, 1] keeps each entry in its row; the broadcast of a column [a, 1] over the
  lanes [a, b] repeats the row's entry on every lane. With the row broadcast [1, b] → [a, b] these are all a row-wise
  normalization needs.
-/
import Idealize.ShloMosaic.Lib.ValueIdx
import Idealize.ShloMosaic.Lib.ValueLayout
import Idealize.ShloMosaic.PureOps.Ideal.Laws

namespace Cert.LibKeepdims

open Idealize.ShloMosaic Idealize.ShloMosaic.ValueIdx

variable {α : Type}

/-- An `[a]` array cast to the column `[a, 1]` reads, at `(p, u)`, the operand at `p`. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- A column `[a, 1]` broadcast over `b` lanes reads, at `(p, q)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (q : Fin b) : broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

/-- The lane sum of an `[a, b]` array, at row `p`: the sum over the row's `b` entries. -/
theorem laneSum_apply {a b : ℕ} (src : FVec Ideal ⟨2, ![a, b]⟩ .f32) (h : (⟨2, ![a, b]⟩ : Shape).Reduces [1] ⟨1, ![a]⟩)
    (hφ : FKind.Formats .f32) (hacc : (0x00000000#32 : BitVec 32) = 0x00000000#32) (p : Fin a) :
    multiReduction .add [1] ⟨1, ![a]⟩ src 0x00000000#32 h hφ hacc (ix1 p) = ∑ k : Fin b, src (ix2 p k) :=
  (Ideal.multiReduction_add_single src 0x00000000#32 h hφ hacc (ix1 p)).trans
    (Finset.sum_congr rfl fun k _ => congrArg src (funext fun c => by
      match c with
      | ⟨0, _⟩ => exact Fin.ext rfl
      | ⟨1, _⟩ => exact Fin.ext rfl))

end Cert.LibKeepdims
-- ==== Proof.BodyValue.lean ====
/-
  What the kernel body computes, entry by entry.

  The body loads the whole weight matrix [64, 2048], one block [1, 1024, 2048] of activations and the bias [64]. It
  multiplies the weights by the transposed block (contracting the two last axes) into a zero accumulator, adds the bias
  as a column spread over the 1024 lanes, and stores the [64, 1024] result as a [1, 64, 1024] block. So entry (u, e, r) of
  what it stores is the inner product of weight row e with activation row r of the block, plus the bias of expert e.
-/
import proofs.«139707_g40827959116453_cont_8to1_b_939_21_alg».proof.Proof.Gen.KernelIdeal.Skeleton
import proofs.«139707_g40827959116453_cont_8to1_b_939_21_alg».proof.Proof.Logits
import proofs.«139707_g40827959116453_cont_8to1_b_939_21_alg».proof.Proof.LibMatmulT
import proofs.«139707_g40827959116453_cont_8to1_b_939_21_alg».proof.Proof.LibKeepdims
import Idealize.ShloMosaic.Lib.Pipeline.Value
import Idealize.ShloMosaic.Lib.ValueIdx
import Idealize.ShloMosaic.PureOps.Ideal.Laws

noncomputable section

open scoped BigOperators

namespace Cert.Router.Body

open Idealize.ShloMosaic Idealize.ShloMosaic.ValueIdx Cert.KernelIdeal Cert.KernelIdeal.Gen

/-- The body's value at entry (u, e, r) of its [1, 64, 1024] block, from the three blocks it loads: the product of
    the weights with the transposed block of activations gives the inner product of row e of the weights with row r
    of the block; the bias, cast to a column and spread over the lanes, adds the entry of expert e. -/
theorem pay_apply (w : Vec Ideal S64x2048 .f32) (xb : Vec Ideal S1x1024x2048 .f32) (bb : Vec Ideal S64 .f32)
    (u : Fin 1) (e : Fin 64) (r : Fin 1024) :
    k0_pay1 (F := Ideal) w xb bb (ix3 u e r)
      = (∑ d : Fin 2048, w (ix2 e d) * xb (ix3 (0 : Fin 1) r d)) + bb (ix1 e) := by
  unfold k0_pay1
  refine (shapeCast_apply _ _ (ix3 u e r) (ix2 e r) ?_).trans ?_
  · rw [Shape.rowMajor_val_two, Shape.rowMajor_val_three]
    have hu : u.val = 0 := by omega
    show e.val * 1024 + r.val = (u.val * 64 + e.val) * 1024 + r.val
    omega
  rw [addf_apply]
  refine congrArg₂ (· + ·) ?_ ?_
  · refine (Idealize.ShloMosaic.MatmulT.matmul_zero_apply dot_S64x2048_S1024x2048_S64x1024_1_1_0_0_n_n none rfl rfl
      ?_ ?_ ?_ ?_ w _ e r).trans ?_
    · intro j q
      unfold DotDims.lhsIdx
      rw [dif_neg (show ¬(0 : Fin S64x2048.rank) ∈ dot_S64x2048_S1024x2048_S64x1024_1_1_0_0_n_n.lhsBatch by decide),
        dif_pos (show (0 : Fin S64x2048.rank) ∈ dot_S64x2048_S1024x2048_S64x1024_1_1_0_0_n_n.lhsNonContracting by decide)]
      rfl
    · intro j q
      exact dot_S64x2048_S1024x2048_S64x1024_1_1_0_0_n_n.lhsIdx_val_of_single rfl j q
    · intro j q
      unfold DotDims.rhsIdx
      rw [dif_neg (show ¬(0 : Fin S1024x2048.rank) ∈ dot_S64x2048_S1024x2048_S64x1024_1_1_0_0_n_n.rhsBatch by decide),
        dif_pos (show (0 : Fin S1024x2048.rank) ∈ dot_S64x2048_S1024x2048_S64x1024_1_1_0_0_n_n.rhsNonContracting by decide)]
      rfl
    · intro j q
      exact dot_S64x2048_S1024x2048_S64x1024_1_1_0_0_n_n.rhsIdx_val_of_single rfl j q
    · refine Finset.sum_congr rfl fun d _ => congrArg (w (ix2 e d) * ·) ?_
      refine shapeCast_apply _ _ (ix2 r d) (ix3 (0 : Fin 1) r d) ?_
      rw [Shape.rowMajor_val_two, Shape.rowMajor_val_three]
      show (0 * 1024 + r.val) * 2048 + d.val = r.val * 2048 + d.val
      omega
  · exact (Cert.LibKeepdims.broadcastTo_a1_ab_apply _ _ e r).trans (Cert.LibKeepdims.shapeCast_a_a1_apply bb _ e 0)

/-- The same entry when the three loaded blocks are known to be pieces of whole arrays X, Wt, B: if weight row e of
    the loaded block is row e of Wt, activation row r of the loaded block is row (a, s) of X, and the loaded bias
    at e is B at e, then what the body stores at (u, e, r) is entry (a, e, s) of the transposed logits of X, Wt, B. -/
theorem pay_block (w : Vec Ideal S64x2048 .f32) (xb : Vec Ideal S1x1024x2048 .f32) (bb : Vec Ideal S64 .f32)
    (X : FVec Ideal ⟨3, ![4, 4096, 2048]⟩ .f32) (Wt : FVec Ideal ⟨2, ![64, 2048]⟩ .f32) (B : FVec Ideal ⟨1, ![64]⟩ .f32)
    (u : Fin 1) (e : Fin 64) (r : Fin 1024) (a : Fin 4) (s : Fin 4096)
    (hw : ∀ d : Fin 2048, w (ix2 e d) = Wt (ix2 e d))
    (hx : ∀ d : Fin 2048, xb (ix3 (0 : Fin 1) r d) = X (ix3 a s d))
    (hb : bb (ix1 e) = B (ix1 e)) :
    k0_pay1 (F := Ideal) w xb bb (ix3 u e r) = Cert.Router.logitsT X Wt B (ix3 a e s) := by
  rw [pay_apply, Cert.Router.logitsT_apply]
  exact congrArg₂ (· + ·) (Finset.sum_congr rfl fun d _ => by rw [hw d, hx d]) hb

end Cert.Router.Body

end
-- ==== Proof.Blocks.lean ====
/-
  From blocks to the whole array.

  The kernel runs on a 4 x 4 grid. At point (i, j) it reads block (i, j, 0) of the activations (rows 1024 j to
  1024 j + 1023 of batch i), the whole weight matrix and the whole bias, and writes block (i, 0, j) of a
  [4, 64, 4096] array. What it writes there is the matching block of ONE function of the three argument arrays, the
  logits with the expert axis in the middle; and the sixteen blocks tile the array. So after the region the array
  holds that function everywhere.
-/
import proofs.«139707_g40827959116453_cont_8to1_b_939_21_alg».proof.Proof.Gen.KernelIdeal.Frame
import proofs.«139707_g40827959116453_cont_8to1_b_939_21_alg».proof.Proof.BodyValue
import Idealize.ShloMosaic.Lib.Pipeline.Value

set_option maxRecDepth 16384

noncomputable section

open scoped BigOperators

namespace Cert.Router.Blocks

open Idealize.ShloMosaic Idealize.ShloMosaic.TcCoe Idealize.ShloMosaic.ValueIdx Idealize.SL.Sem
open Idealize.ShloMosaic.Pipeline (Dat)
open Cert.KernelIdeal Cert.KernelIdeal.Gen

variable (m : (ℓ : Loc nD τ sig) → Buf (Elt Ideal) ℓ)

theorem hz3 : (![0, 0, 0] : Fin 3 → Nat) = fun _ => 0 := funext fun a => by fin_cases a <;> rfl
theorem hz2 : (![0, 0] : Fin 2 → Nat) = fun _ => 0 := funext fun a => by fin_cases a <;> rfl
theorem hz1 : (![0] : Fin 1 → Nat) = fun _ => 0 := funext fun a => by fin_cases a <;> rfl

/-- The four index maps over the 4 x 4 grid, decided once: at point (i, j) the activations' block is (i, j, 0), the
    weights' and the bias's block is the whole array, and the output's block is (i, 0, j) with i, j below 4. -/
theorem idx_facts : ∀ t : Fin cfg0.N,
    win0_0.index t (0 : Fin 3) = win0_3.index t (0 : Fin 3)
    ∧ win0_0.index t (1 : Fin 3) = win0_3.index t (2 : Fin 3)
    ∧ win0_0.index t (2 : Fin 3) = 0
    ∧ win0_1.index t (0 : Fin 2) = 0 ∧ win0_1.index t (1 : Fin 2) = 0
    ∧ win0_2.index t (0 : Fin 1) = 0
    ∧ win0_3.index t (1 : Fin 3) = 0
    ∧ win0_3.index t (0 : Fin 3) ≤ 3 ∧ win0_3.index t (2 : Fin 3) ≤ 3 :=
  (by decide +kernel : ∀ t : Fin grid0.N, _)

/-- What grid point t writes back is block t of the transposed logits of the three argument arrays: the output's
    block (i, 0, j) holds rows 1024 j ... 1024 j + 1023 of batch i, and the activations' block (i, j, 0) holds
    exactly those rows. -/
theorem flushed_eq (c : Dev nD) (t : Fin cfg0.N) :
    (dats m 0 c).flushed 3 t = ((cfg0.win 3).blk t).view.read (Elt Ideal)
      (Cert.Router.logitsT (V m c main_arg0) (V m c main_arg1) (V m c main_arg2)) := by
  show (cfg0.win 3).cut (grid0.coords t) ((dats m 0 c).after 3 t) = _
  rw [after0_3]
  unfold out0_3
  rw [View.canon_unit_zero hz3]
  simp only [View.ld_unit_zero (S := S64x2048) hz2, View.ld_unit_zero (S := S1x1024x2048) hz3, View.ld_unit_zero (S := S64) hz1]
  obtain ⟨e0, e1, e2, e3, e4, e5, e6, e7, e8⟩ := idx_facts t
  funext j
  revert j
  show ∀ j : S1x64x1024.Idx, k0_pay1 (F := Ideal) (iblk m c 1 t) (iblk m c 0 t) (iblk m c 2 t) j
    = Cert.Router.logitsT (V m c main_arg0) (V m c main_arg1) (V m c main_arg2) (((cfg0.win 3).blk t).view.emb j)
  intro j
  obtain ⟨u, e, r, rfl⟩ : ∃ (u : Fin 1) (e : Fin 64) (r : Fin 1024), j = ix3 u e r := ⟨j 0, j 1, j 2, eq_ix3 j⟩
  have hu : u.val = 0 := by omega
  have hemb : ((cfg0.win 3).blk t).view.emb (ix3 u e r)
      = ix3 (⟨win0_3.index t (0 : Fin 3), by omega⟩ : Fin 4) e (⟨win0_3.index t (2 : Fin 3) * 1024 + r.val, by omega⟩ : Fin 4096) := by
    funext ax; apply Fin.ext
    match ax with
    | ⟨0, _⟩ => show win0_3.index t (0 : Fin 3) * 1 + 1 * u.val = win0_3.index t (0 : Fin 3); omega
    | ⟨1, _⟩ => show win0_3.index t (1 : Fin 3) * 64 + 1 * e.val = e.val; omega
    | ⟨2, _⟩ => show win0_3.index t (2 : Fin 3) * 1024 + 1 * r.val = win0_3.index t (2 : Fin 3) * 1024 + r.val; omega
  refine (Cert.Router.Body.pay_block (iblk m c 1 t) (iblk m c 0 t) (iblk m c 2 t) (V m c main_arg0) (V m c main_arg1) (V m c main_arg2)
    u e r ⟨win0_3.index t (0 : Fin 3), by omega⟩ ⟨win0_3.index t (2 : Fin 3) * 1024 + r.val, by omega⟩ ?_ ?_ ?_).trans
    (congrArg _ hemb.symm)
  · intro d
    show V m c main_arg1 (((cfg0.win 1).blk t).view.emb (ix2 e d)) = V m c main_arg1 (ix2 e d)
    refine congrArg _ (funext fun ax => Fin.ext ?_)
    match ax with
    | ⟨0, _⟩ => show win0_1.index t (0 : Fin 2) * 64 + 1 * e.val = e.val; omega
    | ⟨1, _⟩ => show win0_1.index t (1 : Fin 2) * 2048 + 1 * d.val = d.val; omega
  · intro d
    show V m c main_arg0 (((cfg0.win 0).blk t).view.emb (ix3 (0 : Fin 1) r d)) = V m c main_arg0 _
    refine congrArg _ (funext fun ax => Fin.ext ?_)
    match ax with
    | ⟨0, _⟩ => show win0_0.index t (0 : Fin 3) * 1 + 1 * 0 = win0_3.index t (0 : Fin 3); omega
    | ⟨1, _⟩ => show win0_0.index t (1 : Fin 3) * 1024 + 1 * r.val = win0_3.index t (2 : Fin 3) * 1024 + r.val; omega
    | ⟨2, _⟩ => show win0_0.index t (2 : Fin 3) * 2048 + 1 * d.val = d.val; omega
  · show V m c main_arg2 (((cfg0.win 2).blk t).view.emb (ix1 e)) = V m c main_arg2 (ix1 e)
    refine congrArg _ (funext fun ax => Fin.ext ?_)
    match ax with
    | ⟨0, _⟩ => show win0_2.index t (0 : Fin 1) * 64 + 1 * e.val = e.val; omega

/-- An index of the [4, 64, 4096] array lies in point t's block iff each coordinate lies in the block's range. -/
theorem mem_blk (t : Fin cfg0.N) (i : S4x64x4096.Idx) :
    i ∈ ((cfg0.win 3).blk t).view.set ↔ ∀ a : Fin 3, win0_3.index t a * S1x64x1024.size a ≤ (i a).val
      ∧ (i a).val < win0_3.index t a * S1x64x1024.size a + S1x64x1024.size a := by
  show i ∈ ((View.whole main_v0).slice (win0_3.rect t)).set ↔ _
  rw [View.set_slice_whole, Rect.mem_set_unit]
  exact Iff.rfl

/-- Every block (q0, 0, q2) of the 4 x 1 x 4 tiling is some grid point's. -/
theorem idx_onto : ∀ (q0 : Fin 4) (q2 : Fin 4), ∃ t : Fin cfg0.N, win0_3.index t = ![q0.val, 0, q2.val] :=
  (by decide +kernel : ∀ (q0 : Fin 4) (q2 : Fin 4), ∃ t : Fin grid0.N, win0_3.index t = ![q0.val, 0, q2.val])

/-- The blocks tile the array: index (a, e, s) is in the block of the point with block index (a, 0, s / 1024). -/
theorem cover (i : S4x64x4096.Idx) :
    ∃ t : Fin cfg0.N, (cfg0.win 3).flush t = true ∧ i ∈ ((cfg0.win 3).blk t).view.set := by
  have hi0 : (i 0).val < 4 := (i 0).isLt
  have hi1 : (i 1).val < 64 := (i 1).isLt
  have hi2 : (i 2).val < 4096 := (i 2).isLt
  obtain ⟨t, ht⟩ := idx_onto ⟨(i 0).val, hi0⟩ ⟨(i 2).val / 1024, by omega⟩
  have q0 : win0_3.index t (0 : Fin 3) = (i 0).val := congrFun ht 0
  have q1 : win0_3.index t (1 : Fin 3) = 0 := congrFun ht 1
  have q2 : win0_3.index t (2 : Fin 3) = (i 2).val / 1024 := congrFun ht 2
  refine ⟨t, flush0_3 t, ?_⟩
  rw [mem_blk]
  intro a
  match a with
  | ⟨0, _⟩ => show win0_3.index t (0 : Fin 3) * 1 ≤ (i 0).val ∧ (i 0).val < win0_3.index t (0 : Fin 3) * 1 + 1; omega
  | ⟨1, _⟩ => show win0_3.index t (1 : Fin 3) * 64 ≤ (i 1).val ∧ (i 1).val < win0_3.index t (1 : Fin 3) * 64 + 64; omega
  | ⟨2, _⟩ => show win0_3.index t (2 : Fin 3) * 1024 ≤ (i 2).val ∧ (i 2).val < win0_3.index t (2 : Fin 3) * 1024 + 1024; omega

/-- The output array after the region: the transposed logits of the three argument arrays, everywhere. -/
theorem final (c : Dev nD) : (dats m 0 c).arrAt 3 cfg0.N
    = Cert.Router.logitsT (m ((c : Thread nD τ).loc main_arg0)) (m ((c : Thread nD τ).loc main_arg1)) (m ((c : Thread nD τ).loc main_arg2)) :=
  (dats m 0 c).arrAt_eq_of_cover 3 _ (fun t _ => flushed_eq m c t) cover

end Cert.Router.Blocks

end
-- ==== Proof.KernelRun.lean ====
/-
  The idealized kernel's run, read as a value.

  After the region the [4, 64, 4096] array holds the logits with the expert axis in the middle. The one host line that
  follows transposes the last two axes, which puts the expert axis last: the program's result is the logits, entry
  (a, s, e) the inner product of activation row (a, s) with weight row e plus the bias of expert e. The argument arrays
  are inputs of the region only and end as they began.
-/
import proofs.«139707_g40827959116453_cont_8to1_b_939_21_alg».proof.Proof.Blocks
import Idealize.ShloMosaic.Lib.Pipeline.Value
import Idealize.ShloMosaic.Lib.StableHlo.Run

set_option maxRecDepth 16384

noncomputable section

open scoped BigOperators

namespace Cert.Router.Kernel

open Idealize.ShloMosaic Idealize.ShloMosaic.TcCoe Idealize.ShloMosaic.ValueIdx Idealize.SL.Sem
open Idealize.ShloMosaic.Pipeline (Dat)
open Cert.KernelIdeal Cert.KernelIdeal.Gen

variable (m : (ℓ : Loc nD τ sig) → Buf (Elt Ideal) ℓ) (ρ : Dev nD → PrngReg)

/-- The host line after the region swaps the last two axes of the region's output array. That array holds the logits
    with the expert axis in the middle, so the swap yields the logits themselves. -/
theorem tail_eq (c : Dev nD) :
    Pipeline.afterTail₀ cfgs (dats m) 0 (V0 m) [hostOps1] c main_v1
      = Cert.Router.logits (m ((c : Thread nD τ).loc main_arg0)) (m ((c : Thread nD τ).loc main_arg1)) (m ((c : Thread nD τ).loc main_arg2)) := by
  unfold Pipeline.afterTail₀
  show StableHlo.after hostOps1 _ (Proc.devRef .tc main_v1) = _
  after_results
  have hA : Pipeline.withArrays (cfgs 0).spec c (V0 m c) (fun w => (dats m 0 c).arrAt w (cfgs 0).N) (Proc.devRef .tc main_v0)
      = Cert.Router.logitsT (m ((c : Thread nD τ).loc main_arg0)) (m ((c : Thread nD τ).loc main_arg1)) (m ((c : Thread nD τ).loc main_arg2)) :=
    (Pipeline.withArrays_arr spec0 launch0.win.arr_inj c _ _ 3).trans (Cert.Router.Blocks.final m c)
  rw [hA]
  funext i
  obtain ⟨a, s, e, rfl⟩ : ∃ (a : Fin 4) (s : Fin 4096) (e : Fin 64), i = ix3 a s e := ⟨i 0, i 1, i 2, eq_ix3 i⟩
  exact transpose_apply [0, 2, 1] _ transposes_S4x64x4096_S4x4096x64_0_2_1 (ix3 a s e) (ix3 a e s) (fun b => by
    match b with
    | ⟨0, _⟩ => rfl
    | ⟨1, _⟩ => rfl
    | ⟨2, _⟩ => rfl)

/-- The idealized kernel's run: every weakly fair execution terminates, the result array holds the logits of the
    three argument arrays, and the argument arrays are unchanged. -/
theorem run : θ_run defs (onTc (τ := τ) (main (F := Ideal))) ⟨m, fun _ => 0, ρ⟩ (fun r => ∀ c : Dev nD,
      r.2.mem ((c.tc : Thread nD τ).loc main_v1)
        = Cert.Router.logits (m ((c : Thread nD τ).loc main_arg0)) (m ((c : Thread nD τ).loc main_arg1)) (m ((c : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c =>
    ⟨((h c).2 main_v1 (Pipeline.mem_restRefs_of main_v1 rfl (by intro w; fin_cases w <;> decide))).trans (tail_eq m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c)))⟩)
    (run_main m ρ)

end Cert.Router.Kernel

end
-- ==== Proof.lean ====
/-
  A mixture-of-experts router gate: logits = x W^T + b, for activations x [4, 4096, 2048], gate weights W [64, 2048]
  and a bias b [64].

  The kernel streams blocks of 1024 rows of x through a 4 x 4 grid, keeps W and b resident, and at each point
  multiplies W by the transposed block, adds b as a column, and writes a [64, 1024] block of an array laid out
  [4, 64, 4096]; a final transpose of the last two axes gives the [4, 4096, 64] result. The reference contracts the last
  axis of x with the last axis of W and adds b broadcast over the batch and sequence axes.

  On the extended reals both are one function: entry (a, s, e) is the sum over d of x (a, s, d) * W (e, d), plus b e
  (Proof/Logits.lean). The reference is that function term for term (Proof/RefLogits.lean). The kernel's body gives the
  same sum with the factors of each product in the other order (Proof/BodyValue.lean), and multiplication of extended
  reals commutes; the blocks tile the array (Proof/Blocks.lean); the transpose restores the axis order
  (Proof/KernelRun.lean). Only commutativity is used, so the claim holds for all inputs, infinite ones included, and
  the finiteness precondition is never opened.

  The idealization rewrote no operation, so the kernel's idealization is its own text read on the extended reals.
-/
import proofs.«139707_g40827959116453_cont_8to1_b_939_21_alg».proof.Defs
import proofs.«139707_g40827959116453_cont_8to1_b_939_21_alg».proof.Proof.Gen.Kernel
import proofs.«139707_g40827959116453_cont_8to1_b_939_21_alg».proof.Proof.Gen.Kernel.Skeleton
import proofs.«139707_g40827959116453_cont_8to1_b_939_21_alg».proof.Proof.Gen.Kernel.Launch
import proofs.«139707_g40827959116453_cont_8to1_b_939_21_alg».proof.Proof.Gen.Kernel.Points
import proofs.«139707_g40827959116453_cont_8to1_b_939_21_alg».proof.Proof.Gen.Kernel.Frame
import proofs.«139707_g40827959116453_cont_8to1_b_939_21_alg».proof.Proof.Gen.KernelIdeal
import proofs.«139707_g40827959116453_cont_8to1_b_939_21_alg».proof.Proof.Gen.KernelIdeal.Skeleton
import proofs.«139707_g40827959116453_cont_8to1_b_939_21_alg».proof.Proof.Gen.KernelIdeal.Launch
import proofs.«139707_g40827959116453_cont_8to1_b_939_21_alg».proof.Proof.Gen.KernelIdeal.Points
import proofs.«139707_g40827959116453_cont_8to1_b_939_21_alg».proof.Proof.Gen.KernelIdeal.Frame
import proofs.«139707_g40827959116453_cont_8to1_b_939_21_alg».proof.Proof.Gen.ReferenceIdeal
import proofs.«139707_g40827959116453_cont_8to1_b_939_21_alg».proof.Proof.Gen.Pre_finite_inputs
import proofs.«139707_g40827959116453_cont_8to1_b_939_21_alg».proof.Proof.Gen.ReferenceIdeal.Run
import proofs.«139707_g40827959116453_cont_8to1_b_939_21_alg».proof.Proof.Gen.ReferenceIdeal.Read
import proofs.«139707_g40827959116453_cont_8to1_b_939_21_alg».proof.Proof.RefLogits
import proofs.«139707_g40827959116453_cont_8to1_b_939_21_alg».proof.Proof.KernelRun
import Idealize.ShloMosaic.Adequacy
import Idealize.ShloMosaic.Init

noncomputable section

namespace Cert.Proof

open Idealize.ShloMosaic Idealize.SL.Sem

/-- The word-level kernel terminates without a fault and leaves its arguments unchanged. -/
theorem frame_kernel : Cert.frame_Kernel := fun m ρ _ => Cert.Kernel.Gen.frame m ρ

/-- So does the kernel read on the extended reals. -/
theorem frame_kernelIdeal : Cert.frame_KernelIdeal := fun m ρ _ => Cert.KernelIdeal.Gen.frame m ρ

/-- The reference is four host operations; its run, with the result dropped, is its frame. -/
theorem frame_referenceIdeal : Cert.frame_ReferenceIdeal := fun m ρ _ =>
  (θ_run Cert.ReferenceIdeal.defs _ _).mono (fun _ h c => (h c).2) (Cert.ReferenceIdeal.Value.run (F := Ideal) m ρ)

/-- From memories that agree on x, W and b, the kernel's result array and the reference's both end at the logits of
    those three arrays. -/
theorem algebraic : Cert.algebraic_KernelIdeal_ReferenceIdeal := by
  intro m ρ m' ρ' _ hagree
  refine ⟨_, Cert.Router.Kernel.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v3_eq, Cert.Router.Ref.val_eq_logits, (hagree c).1, (hagree c).2.1, (hagree c).2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
